-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S128x47 .f32) (main_arg10 : FVec F S128x47 .f32) (main_arg11 : FVec F S47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S128x47 .f32 := Host.absf main_arg10
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg11
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x47 .f32) (main_arg10 : FVec F S128x47 .f32) (main_arg11 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x47 .f32) (main_arg10 : FVec F S128x47 .f32) (main_arg11 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩
abbrev S1x47 : Shape := ⟨2, ![1, 47]⟩
abbrev S100000x47 : Shape := ⟨2, ![100000, 47]⟩
abbrev S2000x47 : Shape := ⟨2, ![2000, 47]⟩

abbrev nBuf : Space → Nat
  | .hbm => 78
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S1x47, .f32⟩
  | .hbm, ⟨77, _⟩ => ⟨S100000x47, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x47, .f32⟩
  | .local _ .vmem, ⟨23, _⟩ => ⟨S128x47, .f32⟩
  | .local _ .vmem, ⟨24, _⟩ => ⟨S1x47, .f32⟩
  | .local _ .vmem, ⟨25, _⟩ => ⟨S2000x47, .f32⟩
  | .local _ .vmem, ⟨26, _⟩ => ⟨S2000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S2000x47 : S1x47.Broadcasts S2000x47
  inb_S2000x47_S2000x47_0_0 : ∀ a, (![0, 0] : Fin 2 → Nat) a + S2000x47.size a ≤ S2000x47.size a
  h_S2000x47 : 0 < S2000x47.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x47_S2000x47_1_0_0_1_n_n_wf : DotDims.WF S2000x128 S128x47 S2000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x47.size a ≤ S100000x47.size a
  hwx2_5 : ∀ i : grid2.Coords, EltTy.bits .f32 = 32 ∨ (Rect.block (s := S100000x47) S2000x47.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x47_S2000x47_1_0_0_1_n_n : DotDims S2000x128 S128x47 S2000x47 where
  lhsContracting := [1]
  rhsContracting := [0]
  lhsNonContracting := [0]
  rhsNonContracting := [1]
  lhsBatch := []
  rhsBatch := []
  wf := dot_S2000x128_S128x47_S2000x47_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S2000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x47 : Shape := ⟨2, ![100000, 47]⟩
abbrev S1x47 : Shape := ⟨2, ![1, 47]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S_, .f32⟩
  | .hbm, ⟨94, _⟩ => ⟨S1600000, .f32⟩
  | .hbm, ⟨95, _⟩ => ⟨S_, .f32⟩
  | .hbm, ⟨96, _⟩ => ⟨S100000, .f32⟩
  | .hbm, ⟨97, _⟩ => ⟨S1600000x1, .i32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x47, .f32⟩
  | .hbm, ⟨106, _⟩ => ⟨S100000x47, .f32⟩
  | .hbm, ⟨107, _⟩ => ⟨S100000x47, .f32⟩
  | .hbm, ⟨108, _⟩ => ⟨S1x47, .f32⟩
  | .hbm, ⟨109, _⟩ => ⟨S100000x47, .f32⟩
  | .hbm, ⟨110, _⟩ => ⟨S100000x47, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.KernelRun.lean ====
/-
  The idealized kernel's run with its result NAMED. The program is three pipelined regions among stretches of host
  operations; the launch theorem for such a program is stated for any property of the final memory that the last thread
  state implies. The frame certificate reads only the argument arrays off that state; here the result array is read off it
  as well: it ends at the last boundary's contents, `W6 m ρ c` — the third region's output array as its write-backs leave it.
-/
import proofs.«126353_j26560077759041_1_alg».proof.Proof.PatchedKernelIdealFrame

set_option maxRecDepth 16384

noncomputable section

namespace Cert.KernelIdeal.Named

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_named : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Named

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibSageLayer.lean ====
/-
  GENERAL LEMMAS: the arithmetic of one SAGE layer (mean aggregation + two linear maps + bias), index by index, on the
  extended reals; they import only the library and three general lemma files.

  A layer takes node features `h` ([M, K]), the neighbour means `hn` ([M, K]), two weight matrices ([K, N]) and a bias
  ([N]) to `h · W_self + hn · W_neigh + b`; the first two layers clamp the result at zero. Entry `(p, q)` depends on row
  `p` of `h` and of `hn`, on column `q` of the two weights and on `b q` only, so a tiling of the rows changes nothing.
  The neighbour mean is the edge sum divided by `max(deg, 1)`; multiplying by the reciprocal `1 / max(deg, 1)` instead is the
  same extended real, because the divisor is at least one (never zero), whatever the edge sum is — no finiteness is used.
-/
import Idealize.ShloMosaic.Lib.ValueIdx
import Idealize.ShloMosaic.Lib.ValueLayout
import Idealize.ShloMosaic.Lib.Pipeline.Value
import Idealize.ShloMosaic.PureOps.Ideal.Laws
import proofs.«126353_j26560077759041_1_alg».proof.Proof.LibMatmulNN
import proofs.«126353_j26560077759041_1_alg».proof.Proof.LibHostMatmulNN
import proofs.«126353_j26560077759041_1_alg».proof.Proof.LibHostKeepdims

noncomputable section

open scoped BigOperators

namespace Cert.Sage

open Idealize.ShloMosaic Idealize.ShloMosaic.ValueIdx

variable {M K N : ℕ}

/-- Entry `(p, q)` of `h · Ws + hn · Wn + b`. -/
def linAt (h hn : FVec Ideal ⟨2, ![M, K]⟩ .f32) (Ws Wn : FVec Ideal ⟨2, ![K, N]⟩ .f32) (b : Fin N → EReal)
    (p : Fin M) (q : Fin N) : EReal :=
  (∑ k : Fin K, h (ix2 p k) * Ws (ix2 k q)) + (∑ k : Fin K, hn (ix2 p k) * Wn (ix2 k q)) + b q

/-- The layer without the clamp: `h · Ws + hn · Wn + b`. -/
def lin (h hn : FVec Ideal ⟨2, ![M, K]⟩ .f32) (Ws Wn : FVec Ideal ⟨2, ![K, N]⟩ .f32) (b : Fin N → EReal) :
    FVec Ideal ⟨2, ![M, N]⟩ .f32 :=
  fun j => linAt h hn Ws Wn b (j 0) (j 1)

/-- The layer clamped at zero: `max (h · Ws + hn · Wn + b) 0`. -/
def linRelu (h hn : FVec Ideal ⟨2, ![M, K]⟩ .f32) (Ws Wn : FVec Ideal ⟨2, ![K, N]⟩ .f32) (b : Fin N → EReal) :
    FVec Ideal ⟨2, ![M, N]⟩ .f32 :=
  fun j => max (linAt h hn Ws Wn b (j 0) (j 1)) 0

/-- The host's two whole matrix products plus the bias broadcast along the rows are the layer. -/
theorem host_lin (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (dims1 : Fin 1 → Fin 2) (h1 : (⟨1, ![N]⟩ : Shape).BroadcastsInDim ⟨2, ![1, N]⟩ dims1) (hd1 : dims1 0 = 1)
    (dims2 : Fin 2 → Fin 2) (h2 : (⟨2, ![1, N]⟩ : Shape).BroadcastsInDim ⟨2, ![M, N]⟩ dims2) (hd2 : dims2 1 = 1)
    (h hn : FVec Ideal ⟨2, ![M, K]⟩ .f32) (Ws Wn : FVec Ideal ⟨2, ![K, N]⟩ .f32) (b : FVec Ideal ⟨1, ![N]⟩ .f32) :
    addf (addf (Host.dotGeneral d none h Ws) (Host.dotGeneral d none hn Wn))
        (broadcastInDim ⟨2, ![M, N]⟩ dims2 h2 (broadcastInDim ⟨2, ![1, N]⟩ dims1 h1 b))
      = lin h hn Ws Wn (fun q => b (ix1 q)) := by
  funext j
  obtain ⟨p, q, rfl⟩ : ∃ (p : Fin M) (q : Fin N), j = ix2 p q := ⟨j 0, j 1, eq_ix2 j⟩
  rw [addf_apply, addf_apply, Cert.LibHostMatmulNN.hostDot_nn_apply d hlc hrc hln hrn hlb hrb,
    Cert.LibHostMatmulNN.hostDot_nn_apply d hlc hrc hln hrn hlb hrb,
    broadcastInDim_1b_ab_apply dims2 h2 hd2, broadcastInDim_b_1b_apply dims1 h1 hd1]
  rfl

/-- The host's clamp against a broadcast zero is `max · 0` at every entry. -/
theorem host_relu {s : Shape} (dims0 : Fin 0 → Fin s.rank) (h0 : (⟨0, ![]⟩ : Shape).BroadcastsInDim s dims0)
    (X : FVec Ideal s .f32) :
    maximumf X (broadcastInDim s dims0 h0 (constant (F := Ideal) ⟨0, ![]⟩ .f32 0x00000000#32)) = fun j => max (X j) 0 := by
  funext j
  rw [maximumf_apply, broadcastInDim_scalar_apply dims0 h0, constant_apply, Ideal.ofBits_zero_f32]

/-- The layer with the clamp, as the host spells it. -/
theorem host_linRelu (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (dims1 : Fin 1 → Fin 2) (h1 : (⟨1, ![N]⟩ : Shape).BroadcastsInDim ⟨2, ![1, N]⟩ dims1) (hd1 : dims1 0 = 1)
    (dims2 : Fin 2 → Fin 2) (h2 : (⟨2, ![1, N]⟩ : Shape).BroadcastsInDim ⟨2, ![M, N]⟩ dims2) (hd2 : dims2 1 = 1)
    (dims0 : Fin 0 → Fin 2) (h0 : (⟨0, ![]⟩ : Shape).BroadcastsInDim ⟨2, ![M, N]⟩ dims0)
    (h hn : FVec Ideal ⟨2, ![M, K]⟩ .f32) (Ws Wn : FVec Ideal ⟨2, ![K, N]⟩ .f32) (b : FVec Ideal ⟨1, ![N]⟩ .f32) :
    maximumf (addf (addf (Host.dotGeneral d none h Ws) (Host.dotGeneral d none hn Wn))
        (broadcastInDim ⟨2, ![M, N]⟩ dims2 h2 (broadcastInDim ⟨2, ![1, N]⟩ dims1 h1 b)))
        (broadcastInDim ⟨2, ![M, N]⟩ dims0 h0 (constant (F := Ideal) ⟨0, ![]⟩ .f32 0x00000000#32))
      = linRelu h hn Ws Wn (fun q => b (ix1 q)) := by
  rw [host_relu, host_lin d hlc hrc hln hrn hlb hrb dims1 h1 hd1 dims2 h2 hd2]
  rfl

/-- The word of `1.0` is the real one. -/
theorem one_f32 : Ideal.ofBits .f32 0x3F800000#32 = (1 : EReal) := by
  simp [Ideal.ofBits, Ideal.ieee]
  rw [← EReal.coe_mul]
  norm_num

/-- Dividing by `max s 1` is multiplying by its reciprocal `1 / max s 1`: the divisor is never zero. -/
theorem mul_recip_eq_div (x s : EReal) : x * Ideal.div 1 (max s 1) = Ideal.div x (max s 1) := by
  have hd : max s 1 ≠ 0 := ne_of_gt (lt_of_lt_of_le zero_lt_one (le_max_right _ _))
  unfold Ideal.div
  rw [if_neg hd, if_neg hd, one_mul]

/-- The neighbour mean: the edge sums times the broadcast reciprocal of `max(deg, 1)` are the edge sums divided by
    the broadcast `max(deg, 1)`. -/
theorem mean_eq (dims0 : Fin 0 → Fin 1) (h0 : (⟨0, ![]⟩ : Shape).BroadcastsInDim ⟨1, ![M]⟩ dims0)
    (dimsA : Fin 1 → Fin 2) (hA : (⟨1, ![M]⟩ : Shape).BroadcastsInDim ⟨2, ![M, 1]⟩ dimsA) (hdA : dimsA 0 = 0)
    (dimsB : Fin 2 → Fin 2) (hB : (⟨2, ![M, 1]⟩ : Shape).BroadcastsInDim ⟨2, ![M, K]⟩ dimsB) (hdB : dimsB 0 = 0)
    (A : FVec Ideal ⟨2, ![M, K]⟩ .f32) (s : FVec Ideal ⟨1, ![M]⟩ .f32) :
    mulf A (broadcastInDim ⟨2, ![M, K]⟩ dimsB hB (broadcastInDim ⟨2, ![M, 1]⟩ dimsA hA
        (Host.divf (broadcastInDim ⟨1, ![M]⟩ dims0 h0 (constant (F := Ideal) ⟨0, ![]⟩ .f32 0x3F800000#32))
          (maximumf s (broadcastInDim ⟨1, ![M]⟩ dims0 h0 (constant (F := Ideal) ⟨0, ![]⟩ .f32 0x3F800000#32))))))
      = Host.divf A (broadcastInDim ⟨2, ![M, K]⟩ dimsB hB (broadcastInDim ⟨2, ![M, 1]⟩ dimsA hA
          (maximumf s (broadcastInDim ⟨1, ![M]⟩ dims0 h0 (constant (F := Ideal) ⟨0, ![]⟩ .f32 0x3F800000#32))))) := by
  funext j
  obtain ⟨p, q, rfl⟩ : ∃ (p : Fin M) (q : Fin K), j = ix2 p q := ⟨j 0, j 1, eq_ix2 j⟩
  show A (ix2 p q) * _ = Ideal.div (A (ix2 p q)) _
  rw [broadcastInDim_a1_ab_apply dimsB hB hdB, broadcastInDim_a_a1_apply dimsA hA hdA,
    broadcastInDim_a1_ab_apply dimsB hB hdB, broadcastInDim_a_a1_apply dimsA hA hdA]
  show A (ix2 p q) * Ideal.div _ _ = _
  rw [maximumf_apply, broadcastInDim_scalar_apply (t := ⟨1, ![M]⟩) dims0 h0, constant_apply, one_f32]
  exact mul_recip_eq_div _ _

end Cert.Sage

end
-- ==== Proof.Region0.lean ====
/-
  Region 0 of the idealized kernel: one SAGE layer over the rows of a [100000, 128] array in 50 blocks of 2000 rows.
  At grid point `t` the body reads rows `2000·t … 2000·t + 1999` of the node features and of the neighbour means, the two
  whole weight matrices and the one-row bias, and stores `h · W_self + hn · W_neigh + b` clamped at zero for those rows. Entry
  `(p, q)` of a block depends on row `p` of the two blocks only, so block `t` of the output is block `t` of the layer
  applied to the whole arrays; the 50 blocks tile the output, which therefore ends holding the layer of the arrays the
  region found — whatever those are (`V`: the buffers' contents when the region is entered).
-/
import proofs.«126353_j26560077759041_1_alg».proof.Proof.PatchedKernelIdealFrame
import proofs.«126353_j26560077759041_1_alg».proof.Proof.LibSageLayer

set_option maxRecDepth 16384

noncomputable section

open scoped BigOperators

namespace Cert.KernelIdeal.Region0

open Cert.KernelIdeal Cert.KernelIdeal.Gen Cert.KernelIdeal.GenP
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- The body's stored value at `(p, q)`: the two products' sums over the 128 features plus the bias, clamped at zero (a
    change of float format is the identity on the extended reals, and the matrix unit starts from a zero accumulator). -/
theorem pay_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q) = max (Cert.Sage.linAt (M := 2000) (K := 128) (N := 128) x0 x1 x2 x3 (fun q => x4 (ix2 (0 : Fin 1) q)) p q) 0 := by
  have e1 := Cert.LibMatmulNN.matmul_nn_apply dot_S2000x128_S128x128_S2000x128_1_0_0_1_n_n rfl rfl rfl rfl rfl rfl none
    (truncf .bf16 x0 bitsLt_bf16_f32) (truncf .bf16 x2 bitsLt_bf16_f32) p q
  have e2 := Cert.LibMatmulNN.matmul_nn_apply dot_S2000x128_S128x128_S2000x128_1_0_0_1_n_n rfl rfl rfl rfl rfl rfl none
    (truncf .bf16 x1 bitsLt_bf16_f32) (truncf .bf16 x3 bitsLt_bf16_f32) p q
  have e3 : broadcastTo S2000x128 x4 broadcasts_S1x128_S2000x128 (ix2 p q) = x4 (ix2 (0 : Fin 1) q) :=
    broadcastTo_1b_ab_apply x4 _ p q
  unfold k0_pay1 Cert.Sage.linAt
  simp only [shapeCast_self]
  exact congrArg₂ max (congrArg₂ (· + ·) (congrArg₂ (· + ·) e1 e2) e3) Ideal.ofBits_zero_f32

/-- The printed index maps over the grid: the row-blocked windows sit at block `(t, 0)`, the whole-array windows at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row `p` of block `t` is row `2000·t + p` of the array. -/
def row (t : Fin cfg0.N) (p : Fin 2000) : Fin 100000 := ⟨t.val * 2000 + p.val, by have h1 : t.val < 50 := t.isLt; have h2 := p.isLt; show _ < 100000; omega⟩

theorem emb0 (t : Fin cfg0.N) (p : Fin 2000) (k : Fin 128) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem emb1 (t : Fin cfg0.N) (p : Fin 2000) (k : Fin 128) :
    ((cfg0.win 1).blk t).view.emb (ix2 p k) = ix2 (row t p) k := by
  obtain ⟨-, -, e0, e1, -⟩ := idx_facts t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

theorem emb2 (t : Fin cfg0.N) (k : Fin 128) (q : Fin 128) :
    ((cfg0.win 2).blk t).view.emb (ix2 k q) = ix2 k q := by
  obtain ⟨-, -, -, -, e0, e1, -⟩ := idx_facts t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem emb3 (t : Fin cfg0.N) (k : Fin 128) (q : Fin 128) :
    ((cfg0.win 3).blk t).view.emb (ix2 k q) = ix2 k q := by
  obtain ⟨-, -, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem emb4 (t : Fin cfg0.N) (u : Fin 1) (q : Fin 128) :
    ((cfg0.win 4).blk t).view.emb (ix2 u q) = ix2 u q := by
  obtain ⟨-, -, -, -, -, -, -, -, e0, e1, -⟩ := idx_facts t
  funext a; apply Fin.ext
  match a with
  | ⟨0, _⟩ => show win0_4.index t (0 : Fin 2) * 1 + 1 * u.val = u.val; omega
  | ⟨1, _⟩ => show win0_4.index t (1 : Fin 2) * 128 + 1 * q.val = q.val; omega

theorem emb5 (t : Fin cfg0.N) (p : Fin 2000) (q : Fin 128) :
    ((cfg0.win 5).blk t).view.emb (ix2 p q) = ix2 (row t p) q := by
  obtain ⟨-, -, -, -, -, -, -, -, -, -, e0, e1⟩ := idx_facts t
  funext a; apply Fin.ext
  match a with
  | ⟨0, _⟩ => show win0_5.index t (0 : Fin 2) * 2000 + 1 * p.val = t.val * 2000 + p.val; omega
  | ⟨1, _⟩ => show win0_5.index t (1 : Fin 2) * 128 + 1 * q.val = q.val; omega

/-- The layer of the arrays the region finds. -/
def layer (c : Dev nD) : FVec Ideal S100000x128 .f32 :=
  Cert.Sage.linRelu (M := 100000) (K := 128) (N := 128) (V c main_arg0) (V c main_v20) (V c main_arg3) (V c main_arg4)
    (fun q => V c main_v21 (ix2 (0 : Fin 1) q))

/-- What point `t` writes back is block `t` of the layer. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
    = layer V c (((cfg0.win 5).blk t).view.emb (ix2 p q))
  rw [pay_apply, emb5]
  show _ = max (Cert.Sage.linAt _ _ _ _ _ (row t p) q) 0
  unfold Cert.Sage.linAt
  have s0 : ∀ k : Fin 128, iblk0 V c 0 t (ix2 p k) = V c main_arg0 (ix2 (row t p) k) := fun k =>
    show V c main_arg0 (((cfg0.win 0).blk t).view.emb (ix2 p k)) = _ from by rw [emb0]
  have s1 : ∀ k : Fin 128, iblk0 V c 1 t (ix2 p k) = V c main_v20 (ix2 (row t p) k) := fun k =>
    show V c main_v20 (((cfg0.win 1).blk t).view.emb (ix2 p k)) = _ from by rw [emb1]
  have s2 : ∀ k : Fin 128, iblk0 V c 2 t (ix2 k q) = V c main_arg3 (ix2 k q) := fun k =>
    show V c main_arg3 (((cfg0.win 2).blk t).view.emb (ix2 k q)) = _ from by rw [emb2]
  have s3 : ∀ k : Fin 128, iblk0 V c 3 t (ix2 k q) = V c main_arg4 (ix2 k q) := fun k =>
    show V c main_arg4 (((cfg0.win 3).blk t).view.emb (ix2 k q)) = _ from by rw [emb3]
  have s4 : iblk0 V c 4 t (ix2 (0 : Fin 1) q) = V c main_v21 (ix2 (0 : Fin 1) q) :=
    show V c main_v21 (((cfg0.win 4).blk t).view.emb (ix2 (0 : Fin 1) q)) = _ from by rw [emb4]
  simp only [s0, s1, s2, s3, s4]

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22).slice (win0_5.rect t)).set ↔ _
  rw [View.set_slice_whole, Rect.mem_set_unit]
  exact Iff.rfl

/-- Row `r` lies in the block of point `r / 2000`: the 50 blocks tile the output. -/
theorem cover (i : S100000x128.Idx) : ∃ t : Fin cfg0.N, (cfg0.win 5).flush t = true ∧ i ∈ ((cfg0.win 5).blk t).view.set := by
  have hi0 : (i 0).val < 100000 := idx2_lt0 i
  have hi1 : (i 1).val < 128 := idx2_lt1 i
  let t : Fin cfg0.N := ⟨(i 0).val / 2000, by show _ < 50; omega⟩
  obtain ⟨-, -, -, -, -, -, -, -, -, -, e0, e1⟩ := idx_facts t
  refine ⟨t, flush0_5 t, ?_⟩
  rw [mem_blk]
  intro a
  have ht : t.val = (i 0).val / 2000 := rfl
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the region: the layer of the arrays the region found. -/
theorem final (c : Dev nD) : (dat0 V c).arrAt 5 cfg0.N = layer V c :=
  (dat0 V c).arrAt_eq_of_cover 5 (layer V c) (fun t _ => flushed_eq V c t) cover

end Cert.KernelIdeal.Region0

end
-- ==== Proof.Region1.lean ====
/-
  Region 1 of the idealized kernel: one SAGE layer over the rows of a [100000, 128] array in 50 blocks of 2000 rows.
  At grid point `t` the body reads rows `2000·t … 2000·t + 1999` of the node features and of the neighbour means, the two
  whole weight matrices and the one-row bias, and stores `h · W_self + hn · W_neigh + b` clamped at zero for those rows. Entry
  `(p, q)` of a block depends on row `p` of the two blocks only, so block `t` of the output is block `t` of the layer
  applied to the whole arrays; the 50 blocks tile the output, which therefore ends holding the layer of the arrays the
  region found — whatever those are (`V`: the buffers' contents when the region is entered).
-/
import proofs.«126353_j26560077759041_1_alg».proof.Proof.PatchedKernelIdealFrame
import proofs.«126353_j26560077759041_1_alg».proof.Proof.LibSageLayer

set_option maxRecDepth 16384

noncomputable section

open scoped BigOperators

namespace Cert.KernelIdeal.Region1

open Cert.KernelIdeal Cert.KernelIdeal.Gen Cert.KernelIdeal.GenP
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- The body's stored value at `(p, q)`: the two products' sums over the 128 features plus the bias, clamped at zero (a
    change of float format is the identity on the extended reals, and the matrix unit starts from a zero accumulator). -/
theorem pay_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q) = max (Cert.Sage.linAt (M := 2000) (K := 128) (N := 128) x0 x1 x2 x3 (fun q => x4 (ix2 (0 : Fin 1) q)) p q) 0 := by
  have e1 := Cert.LibMatmulNN.matmul_nn_apply dot_S2000x128_S128x128_S2000x128_1_0_0_1_n_n rfl rfl rfl rfl rfl rfl none
    (truncf .bf16 x0 bitsLt_bf16_f32) (truncf .bf16 x2 bitsLt_bf16_f32) p q
  have e2 := Cert.LibMatmulNN.matmul_nn_apply dot_S2000x128_S128x128_S2000x128_1_0_0_1_n_n rfl rfl rfl rfl rfl rfl none
    (truncf .bf16 x1 bitsLt_bf16_f32) (truncf .bf16 x3 bitsLt_bf16_f32) p q
  have e3 : broadcastTo S2000x128 x4 broadcasts_S1x128_S2000x128 (ix2 p q) = x4 (ix2 (0 : Fin 1) q) :=
    broadcastTo_1b_ab_apply x4 _ p q
  unfold k1_pay1 Cert.Sage.linAt
  simp only [shapeCast_self]
  exact congrArg₂ max (congrArg₂ (· + ·) (congrArg₂ (· + ·) e1 e2) e3) Ideal.ofBits_zero_f32

/-- The printed index maps over the grid: the row-blocked windows sit at block `(t, 0)`, the whole-array windows at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row `p` of block `t` is row `2000·t + p` of the array. -/
def row (t : Fin cfg1.N) (p : Fin 2000) : Fin 100000 := ⟨t.val * 2000 + p.val, by have h1 : t.val < 50 := t.isLt; have h2 := p.isLt; show _ < 100000; omega⟩

theorem emb0 (t : Fin cfg1.N) (p : Fin 2000) (k : Fin 128) :
    ((cfg1.win 0).blk t).view.emb (ix2 p k) = ix2 (row t p) k := by
  obtain ⟨e0, e1, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

theorem emb1 (t : Fin cfg1.N) (p : Fin 2000) (k : Fin 128) :
    ((cfg1.win 1).blk t).view.emb (ix2 p k) = ix2 (row t p) k := by
  obtain ⟨-, -, e0, e1, -⟩ := idx_facts t
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

theorem emb2 (t : Fin cfg1.N) (k : Fin 128) (q : Fin 128) :
    ((cfg1.win 2).blk t).view.emb (ix2 k q) = ix2 k q := by
  obtain ⟨-, -, -, -, e0, e1, -⟩ := idx_facts t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem emb3 (t : Fin cfg1.N) (k : Fin 128) (q : Fin 128) :
    ((cfg1.win 3).blk t).view.emb (ix2 k q) = ix2 k q := by
  obtain ⟨-, -, -, -, -, -, e0, e1, -⟩ := idx_facts t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem emb4 (t : Fin cfg1.N) (u : Fin 1) (q : Fin 128) :
    ((cfg1.win 4).blk t).view.emb (ix2 u q) = ix2 u q := by
  obtain ⟨-, -, -, -, -, -, -, -, e0, e1, -⟩ := idx_facts t
  funext a; apply Fin.ext
  match a with
  | ⟨0, _⟩ => show win1_4.index t (0 : Fin 2) * 1 + 1 * u.val = u.val; omega
  | ⟨1, _⟩ => show win1_4.index t (1 : Fin 2) * 128 + 1 * q.val = q.val; omega

theorem emb5 (t : Fin cfg1.N) (p : Fin 2000) (q : Fin 128) :
    ((cfg1.win 5).blk t).view.emb (ix2 p q) = ix2 (row t p) q := by
  obtain ⟨-, -, -, -, -, -, -, -, -, -, e0, e1⟩ := idx_facts t
  funext a; apply Fin.ext
  match a with
  | ⟨0, _⟩ => show win1_5.index t (0 : Fin 2) * 2000 + 1 * p.val = t.val * 2000 + p.val; omega
  | ⟨1, _⟩ => show win1_5.index t (1 : Fin 2) * 128 + 1 * q.val = q.val; omega

/-- The layer of the arrays the region finds. -/
def layer (c : Dev nD) : FVec Ideal S100000x128 .f32 :=
  Cert.Sage.linRelu (M := 100000) (K := 128) (N := 128) (V c main_v22) (V c main_v35) (V c main_arg6) (V c main_arg7)
    (fun q => V c main_v36 (ix2 (0 : Fin 1) q))

/-- What point `t` writes back is block `t` of the layer. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  show k1_pay1 (F := Ideal) (iblk1 V c 0 t) (iblk1 V c 1 t) (iblk1 V c 2 t) (iblk1 V c 3 t) (iblk1 V c 4 t) (ix2 p q)
    = layer V c (((cfg1.win 5).blk t).view.emb (ix2 p q))
  rw [pay_apply, emb5]
  show _ = max (Cert.Sage.linAt _ _ _ _ _ (row t p) q) 0
  unfold Cert.Sage.linAt
  have s0 : ∀ k : Fin 128, iblk1 V c 0 t (ix2 p k) = V c main_v22 (ix2 (row t p) k) := fun k =>
    show V c main_v22 (((cfg1.win 0).blk t).view.emb (ix2 p k)) = _ from by rw [emb0]
  have s1 : ∀ k : Fin 128, iblk1 V c 1 t (ix2 p k) = V c main_v35 (ix2 (row t p) k) := fun k =>
    show V c main_v35 (((cfg1.win 1).blk t).view.emb (ix2 p k)) = _ from by rw [emb1]
  have s2 : ∀ k : Fin 128, iblk1 V c 2 t (ix2 k q) = V c main_arg6 (ix2 k q) := fun k =>
    show V c main_arg6 (((cfg1.win 2).blk t).view.emb (ix2 k q)) = _ from by rw [emb2]
  have s3 : ∀ k : Fin 128, iblk1 V c 3 t (ix2 k q) = V c main_arg7 (ix2 k q) := fun k =>
    show V c main_arg7 (((cfg1.win 3).blk t).view.emb (ix2 k q)) = _ from by rw [emb3]
  have s4 : iblk1 V c 4 t (ix2 (0 : Fin 1) q) = V c main_v36 (ix2 (0 : Fin 1) q) :=
    show V c main_v36 (((cfg1.win 4).blk t).view.emb (ix2 (0 : Fin 1) q)) = _ from by rw [emb4]
  simp only [s0, s1, s2, s3, s4]

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v37).slice (win1_5.rect t)).set ↔ _
  rw [View.set_slice_whole, Rect.mem_set_unit]
  exact Iff.rfl

/-- Row `r` lies in the block of point `r / 2000`: the 50 blocks tile the output. -/
theorem cover (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  let t : Fin cfg1.N := ⟨(i 0).val / 2000, by show _ < 50; omega⟩
  obtain ⟨-, -, -, -, -, -, -, -, -, -, e0, e1⟩ := idx_facts t
  refine ⟨t, flush1_5 t, ?_⟩
  rw [mem_blk]
  intro a
  have ht : t.val = (i 0).val / 2000 := rfl
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the region: the layer of the arrays the region found. -/
theorem final (c : Dev nD) : (dat1 V c).arrAt 5 cfg1.N = layer V c :=
  (dat1 V c).arrAt_eq_of_cover 5 (layer V c) (fun t _ => flushed_eq V c t) cover

end Cert.KernelIdeal.Region1

end
-- ==== Proof.Region2.lean ====
/-
  Region 2 of the idealized kernel: one SAGE layer over the rows of a [100000, 47] array in 50 blocks of 2000 rows.
  At grid point `t` the body reads rows `2000·t … 2000·t + 1999` of the node features and of the neighbour means, the two
  whole weight matrices and the one-row bias, and stores `h · W_self + hn · W_neigh + b` for those rows. Entry
  `(p, q)` of a block depends on row `p` of the two blocks only, so block `t` of the output is block `t` of the layer
  applied to the whole arrays; the 50 blocks tile the output, which therefore ends holding the layer of the arrays the
  region found — whatever those are (`V`: the buffers' contents when the region is entered).
-/
import proofs.«126353_j26560077759041_1_alg».proof.Proof.PatchedKernelIdealFrame
import proofs.«126353_j26560077759041_1_alg».proof.Proof.LibSageLayer

set_option maxRecDepth 16384

noncomputable section

open scoped BigOperators

namespace Cert.KernelIdeal.Region2

open Cert.KernelIdeal Cert.KernelIdeal.Gen Cert.KernelIdeal.GenP
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- The body's stored value at `(p, q)`: the two products' sums over the 128 features plus the bias (a
    change of float format is the identity on the extended reals, and the matrix unit starts from a zero accumulator). -/
theorem pay_apply (x0 x1 : Vec Ideal S2000x128 .f32) (x2 x3 : Vec Ideal S128x47 .f32) (x4 : Vec Ideal S1x47 .f32)
    (p : Fin 2000) (q : Fin 47) :
    k2_pay1 (F := Ideal) x0 x1 x2 x3 x4 (ix2 p q) = Cert.Sage.linAt (M := 2000) (K := 128) (N := 47) x0 x1 x2 x3 (fun q => x4 (ix2 (0 : Fin 1) q)) p q := by
  have e1 := Cert.LibMatmulNN.matmul_nn_apply dot_S2000x128_S128x47_S2000x47_1_0_0_1_n_n rfl rfl rfl rfl rfl rfl none
    (truncf .bf16 x0 bitsLt_bf16_f32) (truncf .bf16 x2 bitsLt_bf16_f32) p q
  have e2 := Cert.LibMatmulNN.matmul_nn_apply dot_S2000x128_S128x47_S2000x47_1_0_0_1_n_n rfl rfl rfl rfl rfl rfl none
    (truncf .bf16 x1 bitsLt_bf16_f32) (truncf .bf16 x3 bitsLt_bf16_f32) p q
  have e3 : broadcastTo S2000x47 x4 broadcasts_S1x47_S2000x47 (ix2 p q) = x4 (ix2 (0 : Fin 1) q) :=
    broadcastTo_1b_ab_apply x4 _ p q
  unfold k2_pay1 Cert.Sage.linAt
  simp only [shapeCast_self]
  exact congrArg₂ (· + ·) (congrArg₂ (· + ·) e1 e2) e3

/-- The printed index maps over the grid: the row-blocked windows sit at block `(t, 0)`, the whole-array windows at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Row `p` of block `t` is row `2000·t + p` of the array. -/
def row (t : Fin cfg2.N) (p : Fin 2000) : Fin 100000 := ⟨t.val * 2000 + p.val, by have h1 : t.val < 50 := t.isLt; have h2 := p.isLt; show _ < 100000; omega⟩

theorem emb0 (t : Fin cfg2.N) (p : Fin 2000) (k : Fin 128) :
    ((cfg2.win 0).blk t).view.emb (ix2 p k) = ix2 (row t p) k := by
  obtain ⟨e0, e1, -⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega

theorem emb1 (t : Fin cfg2.N) (p : Fin 2000) (k : Fin 128) :
    ((cfg2.win 1).blk t).view.emb (ix2 p k) = ix2 (row t p) k := by
  obtain ⟨-, -, e0, e1, -⟩ := idx_facts t
  funext a; apply Fin.ext
  match a with
  | ⟨0, _⟩ => show win2_1.index t (0 : Fin 2) * 2000 + 1 * p.val = t.val * 2000 + p.val; omega
  | ⟨1, _⟩ => show win2_1.index t (1 : Fin 2) * 128 + 1 * k.val = k.val; omega

theorem emb2 (t : Fin cfg2.N) (k : Fin 128) (q : Fin 47) :
    ((cfg2.win 2).blk t).view.emb (ix2 k q) = ix2 k q := by
  obtain ⟨-, -, -, -, e0, e1, -⟩ := idx_facts t
  funext a; apply Fin.ext
  match a with
  | ⟨0, _⟩ => show win2_2.index t (0 : Fin 2) * 128 + 1 * k.val = k.val; omega
  | ⟨1, _⟩ => show win2_2.index t (1 : Fin 2) * 47 + 1 * q.val = q.val; omega

theorem emb3 (t : Fin cfg2.N) (k : Fin 128) (q : Fin 47) :
    ((cfg2.win 3).blk t).view.emb (ix2 k q) = ix2 k q := by
  obtain ⟨-, -, -, -, -, -, e0, e1, -⟩ := idx_facts t
  funext a; apply Fin.ext
  match a with
  | ⟨0, _⟩ => show win2_3.index t (0 : Fin 2) * 128 + 1 * k.val = k.val; omega
  | ⟨1, _⟩ => show win2_3.index t (1 : Fin 2) * 47 + 1 * q.val = q.val; omega

theorem emb4 (t : Fin cfg2.N) (u : Fin 1) (q : Fin 47) :
    ((cfg2.win 4).blk t).view.emb (ix2 u q) = ix2 u q := by
  obtain ⟨-, -, -, -, -, -, -, -, e0, e1, -⟩ := idx_facts t
  funext a; apply Fin.ext
  match a with
  | ⟨0, _⟩ => show win2_4.index t (0 : Fin 2) * 1 + 1 * u.val = u.val; omega
  | ⟨1, _⟩ => show win2_4.index t (1 : Fin 2) * 47 + 1 * q.val = q.val; omega

theorem emb5 (t : Fin cfg2.N) (p : Fin 2000) (q : Fin 47) :
    ((cfg2.win 5).blk t).view.emb (ix2 p q) = ix2 (row t p) q := by
  obtain ⟨-, -, -, -, -, -, -, -, -, -, e0, e1⟩ := idx_facts t
  funext a; apply Fin.ext
  match a with
  | ⟨0, _⟩ => show win2_5.index t (0 : Fin 2) * 2000 + 1 * p.val = t.val * 2000 + p.val; omega
  | ⟨1, _⟩ => show win2_5.index t (1 : Fin 2) * 47 + 1 * q.val = q.val; omega

/-- The layer of the arrays the region finds. -/
def layer (c : Dev nD) : FVec Ideal S100000x47 .f32 :=
  Cert.Sage.lin (M := 100000) (K := 128) (N := 47) (V c main_v37) (V c main_v50) (V c main_arg9) (V c main_arg10)
    (fun q => V c main_v51 (ix2 (0 : Fin 1) q))

/-- What point `t` writes back is block `t` of the layer. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x47) hz, View.ld_unit_zero (S := S1x47) hz, View.ld_unit_zero (S := S2000x47) hz]
  funext y
  obtain ⟨p, q, rfl⟩ : ∃ (p : Fin 2000) (q : Fin 47), y = ix2 p q := ⟨y 0, y 1, eq_ix2 y⟩
  show k2_pay1 (F := Ideal) (iblk2 V c 0 t) (iblk2 V c 1 t) (iblk2 V c 2 t) (iblk2 V c 3 t) (iblk2 V c 4 t) (ix2 p q)
    = layer V c (((cfg2.win 5).blk t).view.emb (ix2 p q))
  rw [pay_apply, emb5]
  unfold layer Cert.Sage.lin
  show _ = Cert.Sage.linAt _ _ _ _ _ (row t p) q
  unfold Cert.Sage.linAt
  have s0 : ∀ k : Fin 128, iblk2 V c 0 t (ix2 p k) = V c main_v37 (ix2 (row t p) k) := fun k =>
    show V c main_v37 (((cfg2.win 0).blk t).view.emb (ix2 p k)) = _ from by rw [emb0]
  have s1 : ∀ k : Fin 128, iblk2 V c 1 t (ix2 p k) = V c main_v50 (ix2 (row t p) k) := fun k =>
    show V c main_v50 (((cfg2.win 1).blk t).view.emb (ix2 p k)) = _ from by rw [emb1]
  have s2 : ∀ k : Fin 128, iblk2 V c 2 t (ix2 k q) = V c main_arg9 (ix2 k q) := fun k =>
    show V c main_arg9 (((cfg2.win 2).blk t).view.emb (ix2 k q)) = _ from by rw [emb2]
  have s3 : ∀ k : Fin 128, iblk2 V c 3 t (ix2 k q) = V c main_arg10 (ix2 k q) := fun k =>
    show V c main_arg10 (((cfg2.win 3).blk t).view.emb (ix2 k q)) = _ from by rw [emb3]
  have s4 : iblk2 V c 4 t (ix2 (0 : Fin 1) q) = V c main_v51 (ix2 (0 : Fin 1) q) :=
    show V c main_v51 (((cfg2.win 4).blk t).view.emb (ix2 (0 : Fin 1) q)) = _ from by rw [emb4]
  simp only [s0, s1, s2, s3, s4]

/-- An index of the output array is in point `t`'s block iff each coordinate is in the block's range on its axis. -/
theorem mem_blk (t : Fin cfg2.N) (i : S100000x47.Idx) :
    i ∈ ((cfg2.win 5).blk t).view.set ↔ ∀ a : Fin 2, win2_5.index t a * S2000x47.size a ≤ (i a).val ∧ (i a).val < win2_5.index t a * S2000x47.size a + S2000x47.size a := by
  show i ∈ ((View.whole main_v52).slice (win2_5.rect t)).set ↔ _
  rw [View.set_slice_whole, Rect.mem_set_unit]
  exact Iff.rfl

/-- Row `r` lies in the block of point `r / 2000`: the 50 blocks tile the output. -/
theorem cover (i : S100000x47.Idx) : ∃ t : Fin cfg2.N, (cfg2.win 5).flush t = true ∧ i ∈ ((cfg2.win 5).blk t).view.set := by
  have hi0 : (i 0).val < 100000 := idx2_lt0 i
  have hi1 : (i 1).val < 47 := idx2_lt1 i
  let t : Fin cfg2.N := ⟨(i 0).val / 2000, by show _ < 50; omega⟩
  obtain ⟨-, -, -, -, -, -, -, -, -, -, e0, e1⟩ := idx_facts t
  refine ⟨t, flush2_5 t, ?_⟩
  rw [mem_blk]
  intro a
  have ht : t.val = (i 0).val / 2000 := rfl
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 47 ≤ (i 1).val ∧ (i 1).val < win2_5.index t (1 : Fin 2) * 47 + 47; omega

/-- The output array after the region: the layer of the arrays the region found. -/
theorem final (c : Dev nD) : (dat2 V c).arrAt 5 cfg2.N = layer V c :=
  (dat2 V c).arrAt_eq_of_cover 5 (layer V c) (fun t _ => flushed_eq V c t) cover

end Cert.KernelIdeal.Region2

end
-- ==== Proof.HostStretch.lean ====
/-
  The host operations between the kernel's regions, read as functions of the buffers they start from. Each stretch wraps
  negative source indices, gathers the source rows of the current features, scatter-adds them onto their destination rows
  and multiplies by the reciprocal degree `1 / max(deg, 1)` broadcast along the features (the first stretch also computes
  that reciprocal, once, from the destination indices); it reshapes the layer's bias to one row; and it leaves every other
  buffer as it was.
-/
import proofs.«126353_j26560077759041_1_alg».proof.Proof.PatchedKernelIdealLaunch
import Idealize.ShloMosaic.Lib.StableHlo.Run
import Idealize.ShloMosaic.PureOps.Ideal

set_option maxRecDepth 16384

noncomputable section

namespace Cert.KernelIdeal.Host

open Cert.KernelIdeal Cert.KernelIdeal.Gen Cert.KernelIdeal.GenP
open Idealize.ShloMosaic Idealize.ShloMosaic.TcCoe Idealize.SL.Sem Idealize.ShloMosaic.StableHlo

/-- The reciprocal degree: one over `max(deg, 1)`, `deg` the number of edges arriving at each row. -/
def dinvK (dst : Vec Ideal S1600000 .i32) : FVec Ideal S100000 .f32 :=
  Host.divf (broadcastInDim S100000 ![] bcast_S_S100000 (constant (F := Ideal) S_ .f32 0x3F800000#32))
    (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))
      (broadcastInDim S100000 ![] bcast_S_S100000 (constant (F := Ideal) S_ .f32 0x3F800000#32)))

/-- The neighbour mean as the kernel's host side computes it: the rows of `h` at the (wrapped) source indices, summed
    onto their destination rows, TIMES the reciprocal degree. -/
def meanK (h : FVec Ideal S100000x128 .f32) (src dst : Vec Ideal S1600000 .i32) (dinv : FVec Ideal S100000 .f32) :
    FVec Ideal S100000x128 .f32 :=
  mulf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))
    (broadcastInDim S100000x128 ![0, 1] bcast_S100000x1_S100000x128_0_1 (broadcastInDim S100000x1 ![0] bcast_S100000_S100000x1_0 dinv))

variable (W : Valuation τ sig (Elt Ideal))

/-! ## The first stretch -/

set_option maxHeartbeats 4000000 in
theorem ops0_v7 : StableHlo.after (hostOps0 (F := Ideal)) W (Proc.devRef .tc main_v7) = dinvK (W (Proc.devRef .tc main_arg2)) := by
  after_results_simp <;> rfl

set_option maxHeartbeats 4000000 in
theorem ops0_v20 : StableHlo.after (hostOps0 (F := Ideal)) W (Proc.devRef .tc main_v20)
    = meanK (W (Proc.devRef .tc main_arg0)) (W (Proc.devRef .tc main_arg1)) (W (Proc.devRef .tc main_arg2)) (dinvK (W (Proc.devRef .tc main_arg2))) := by
  after_results_simp <;> rfl

set_option maxHeartbeats 4000000 in
theorem ops0_v21 : StableHlo.after (hostOps0 (F := Ideal)) W (Proc.devRef .tc main_v21)
    = fun i => shapeCast S1x128 (W (Proc.devRef .tc main_arg5)) shapeCasts_S128_S1x128 i := by
  after_results_simp <;> rfl

set_option maxHeartbeats 4000000 in
theorem keep0_main_arg0 : StableHlo.after (hostOps0 (F := Ideal)) W (Proc.devRef .tc main_arg0) = W (Proc.devRef .tc main_arg0) := by
  after_results_simp <;> rfl

set_option maxHeartbeats 4000000 in
theorem keep0_main_arg1 : StableHlo.after (hostOps0 (F := Ideal)) W (Proc.devRef .tc main_arg1) = W (Proc.devRef .tc main_arg1) := by
  after_results_simp <;> rfl

set_option maxHeartbeats 4000000 in
theorem keep0_main_arg2 : StableHlo.after (hostOps0 (F := Ideal)) W (Proc.devRef .tc main_arg2) = W (Proc.devRef .tc main_arg2) := by
  after_results_simp <;> rfl

set_option maxHeartbeats 4000000 in
theorem keep0_main_arg3 : StableHlo.after (hostOps0 (F := Ideal)) W (Proc.devRef .tc main_arg3) = W (Proc.devRef .tc main_arg3) := by
  after_results_simp <;> rfl

set_option maxHeartbeats 4000000 in
theorem keep0_main_arg4 : StableHlo.after (hostOps0 (F := Ideal)) W (Proc.devRef .tc main_arg4) = W (Proc.devRef .tc main_arg4) := by
  after_results_simp <;> rfl

set_option maxHeartbeats 4000000 in
theorem keep0_main_arg6 : StableHlo.after (hostOps0 (F := Ideal)) W (Proc.devRef .tc main_arg6) = W (Proc.devRef .tc main_arg6) := by
  after_results_simp <;> rfl

set_option maxHeartbeats 4000000 in
theorem keep0_main_arg7 : StableHlo.after (hostOps0 (F := Ideal)) W (Proc.devRef .tc main_arg7) = W (Proc.devRef .tc main_arg7) := by
  after_results_simp <;> rfl

set_option maxHeartbeats 4000000 in
theorem keep0_main_arg8 : StableHlo.after (hostOps0 (F := Ideal)) W (Proc.devRef .tc main_arg8) = W (Proc.devRef .tc main_arg8) := by
  after_results_simp <;> rfl

set_option maxHeartbeats 4000000 in
theorem keep0_main_arg9 : StableHlo.after (hostOps0 (F := Ideal)) W (Proc.devRef .tc main_arg9) = W (Proc.devRef .tc main_arg9) := by
  after_results_simp <;> rfl

set_option maxHeartbeats 4000000 in
theorem keep0_main_arg10 : StableHlo.after (hostOps0 (F := Ideal)) W (Proc.devRef .tc main_arg10) = W (Proc.devRef .tc main_arg10) := by
  after_results_simp <;> rfl

set_option maxHeartbeats 4000000 in
theorem keep0_main_arg11 : StableHlo.after (hostOps0 (F := Ideal)) W (Proc.devRef .tc main_arg11) = W (Proc.devRef .tc main_arg11) := by
  after_results_simp <;> rfl

/-! ## The second stretch -/

set_option maxHeartbeats 4000000 in
theorem ops1_v35 : StableHlo.after (hostOps1 (F := Ideal)) W (Proc.devRef .tc main_v35)
    = meanK (W (Proc.devRef .tc main_v22)) (W (Proc.devRef .tc main_arg1)) (W (Proc.devRef .tc main_arg2)) (W (Proc.devRef .tc main_v7)) := by
  after_results_simp <;> rfl

set_option maxHeartbeats 4000000 in
theorem ops1_v36 : StableHlo.after (hostOps1 (F := Ideal)) W (Proc.devRef .tc main_v36)
    = fun i => shapeCast S1x128 (W (Proc.devRef .tc main_arg8)) shapeCasts_S128_S1x128 i := by
  after_results_simp <;> rfl

set_option maxHeartbeats 4000000 in
theorem keep1_main_v22 : StableHlo.after (hostOps1 (F := Ideal)) W (Proc.devRef .tc main_v22) = W (Proc.devRef .tc main_v22) := by
  after_results_simp <;> rfl

set_option maxHeartbeats 4000000 in
theorem keep1_main_v7 : StableHlo.after (hostOps1 (F := Ideal)) W (Proc.devRef .tc main_v7) = W (Proc.devRef .tc main_v7) := by
  after_results_simp <;> rfl

set_option maxHeartbeats 4000000 in
theorem keep1_main_arg1 : StableHlo.after (hostOps1 (F := Ideal)) W (Proc.devRef .tc main_arg1) = W (Proc.devRef .tc main_arg1) := by
  after_results_simp <;> rfl

set_option maxHeartbeats 4000000 in
theorem keep1_main_arg2 : StableHlo.after (hostOps1 (F := Ideal)) W (Proc.devRef .tc main_arg2) = W (Proc.devRef .tc main_arg2) := by
  after_results_simp <;> rfl

set_option maxHeartbeats 4000000 in
theorem keep1_main_arg6 : StableHlo.after (hostOps1 (F := Ideal)) W (Proc.devRef .tc main_arg6) = W (Proc.devRef .tc main_arg6) := by
  after_results_simp <;> rfl

set_option maxHeartbeats 4000000 in
theorem keep1_main_arg7 : StableHlo.after (hostOps1 (F := Ideal)) W (Proc.devRef .tc main_arg7) = W (Proc.devRef .tc main_arg7) := by
  after_results_simp <;> rfl

set_option maxHeartbeats 4000000 in
theorem keep1_main_arg9 : StableHlo.after (hostOps1 (F := Ideal)) W (Proc.devRef .tc main_arg9) = W (Proc.devRef .tc main_arg9) := by
  after_results_simp <;> rfl

set_option maxHeartbeats 4000000 in
theorem keep1_main_arg10 : StableHlo.after (hostOps1 (F := Ideal)) W (Proc.devRef .tc main_arg10) = W (Proc.devRef .tc main_arg10) := by
  after_results_simp <;> rfl

set_option maxHeartbeats 4000000 in
theorem keep1_main_arg11 : StableHlo.after (hostOps1 (F := Ideal)) W (Proc.devRef .tc main_arg11) = W (Proc.devRef .tc main_arg11) := by
  after_results_simp <;> rfl

/-! ## The third stretch -/

set_option maxHeartbeats 4000000 in
theorem ops2_v50 : StableHlo.after (hostOps2 (F := Ideal)) W (Proc.devRef .tc main_v50)
    = meanK (W (Proc.devRef .tc main_v37)) (W (Proc.devRef .tc main_arg1)) (W (Proc.devRef .tc main_arg2)) (W (Proc.devRef .tc main_v7)) := by
  after_results_simp <;> rfl

set_option maxHeartbeats 4000000 in
theorem ops2_v51 : StableHlo.after (hostOps2 (F := Ideal)) W (Proc.devRef .tc main_v51)
    = fun i => shapeCast S1x47 (W (Proc.devRef .tc main_arg11)) shapeCasts_S47_S1x47 i := by
  after_results_simp <;> rfl

set_option maxHeartbeats 4000000 in
theorem keep2_main_v37 : StableHlo.after (hostOps2 (F := Ideal)) W (Proc.devRef .tc main_v37) = W (Proc.devRef .tc main_v37) := by
  after_results_simp <;> rfl

set_option maxHeartbeats 4000000 in
theorem keep2_main_arg9 : StableHlo.after (hostOps2 (F := Ideal)) W (Proc.devRef .tc main_arg9) = W (Proc.devRef .tc main_arg9) := by
  after_results_simp <;> rfl

set_option maxHeartbeats 4000000 in
theorem keep2_main_arg10 : StableHlo.after (hostOps2 (F := Ideal)) W (Proc.devRef .tc main_arg10) = W (Proc.devRef .tc main_arg10) := by
  after_results_simp <;> rfl

end Cert.KernelIdeal.Host

end
-- ==== Proof.KernelValue.lean ====
/-
  The idealized kernel's result as three layers of the specification. The last boundary's contents at the result buffer
  are the third region's output; each region's output is the layer of the arrays it finds; and what a region finds is what
  the host stretch before it computes from the previous region's output and the arguments (the wrapped gather, the
  scatter-add, the product with the reciprocal degree, the reshaped bias). Reading the boundaries back one at a time gives
  `K2`: the output layer of `K1`, the clamped layer of `K0`, the clamped layer of the input features.
-/
import proofs.«126353_j26560077759041_1_alg».proof.Proof.KernelRun
import proofs.«126353_j26560077759041_1_alg».proof.Proof.Region0
import proofs.«126353_j26560077759041_1_alg».proof.Proof.Region1
import proofs.«126353_j26560077759041_1_alg».proof.Proof.Region2
import proofs.«126353_j26560077759041_1_alg».proof.Proof.HostStretch

set_option maxRecDepth 16384

noncomputable section

namespace Cert.KernelIdeal.KV

open Cert.KernelIdeal Cert.KernelIdeal.Gen Cert.KernelIdeal.GenP Cert.KernelIdeal.Host
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The first hidden layer of the input features. -/
def K0 : FVec Ideal S100000x128 .f32 :=
  Cert.Sage.linRelu (M := 100000) (K := 128) (N := 128) (m ((c.tc : Thread nD τ).loc main_arg0))
    (meanK (m ((c.tc : Thread nD τ).loc main_arg0)) (m ((c.tc : Thread nD τ).loc main_arg1)) (m ((c.tc : Thread nD τ).loc main_arg2)) (dinvK (m ((c.tc : Thread nD τ).loc main_arg2))))
    (m ((c.tc : Thread nD τ).loc main_arg3)) (m ((c.tc : Thread nD τ).loc main_arg4)) (fun q => (m ((c.tc : Thread nD τ).loc main_arg5)) (ix1 q))

/-- The second hidden layer. -/
def K1 : FVec Ideal S100000x128 .f32 :=
  Cert.Sage.linRelu (M := 100000) (K := 128) (N := 128) (K0 m c)
    (meanK (K0 m c) (m ((c.tc : Thread nD τ).loc main_arg1)) (m ((c.tc : Thread nD τ).loc main_arg2)) (dinvK (m ((c.tc : Thread nD τ).loc main_arg2))))
    (m ((c.tc : Thread nD τ).loc main_arg6)) (m ((c.tc : Thread nD τ).loc main_arg7)) (fun q => (m ((c.tc : Thread nD τ).loc main_arg8)) (ix1 q))

/-- The output layer. -/
def K2 : FVec Ideal S100000x47 .f32 :=
  Cert.Sage.lin (M := 100000) (K := 128) (N := 47) (K1 m c)
    (meanK (K1 m c) (m ((c.tc : Thread nD τ).loc main_arg1)) (m ((c.tc : Thread nD τ).loc main_arg2)) (dinvK (m ((c.tc : Thread nD τ).loc main_arg2))))
    (m ((c.tc : Thread nD τ).loc main_arg9)) (m ((c.tc : Thread nD τ).loc main_arg10)) (fun q => (m ((c.tc : Thread nD τ).loc main_arg11)) (ix1 q))

/-! ## After the first stretch (region 0's entry) -/

theorem v1_arg0 : V1 m ρ c main_arg0 = (m ((c.tc : Thread nD τ).loc main_arg0)) := keep0_main_arg0 (W0 m ρ c)
theorem v1_arg3 : V1 m ρ c main_arg3 = (m ((c.tc : Thread nD τ).loc main_arg3)) := keep0_main_arg3 (W0 m ρ c)
theorem v1_arg4 : V1 m ρ c main_arg4 = (m ((c.tc : Thread nD τ).loc main_arg4)) := keep0_main_arg4 (W0 m ρ c)
theorem v1_v20 : V1 m ρ c main_v20
    = meanK (m ((c.tc : Thread nD τ).loc main_arg0)) (m ((c.tc : Thread nD τ).loc main_arg1)) (m ((c.tc : Thread nD τ).loc main_arg2)) (dinvK (m ((c.tc : Thread nD τ).loc main_arg2))) := ops0_v20 (W0 m ρ c)
theorem v1_v21 : V1 m ρ c main_v21 = fun i => shapeCast S1x128 (m ((c.tc : Thread nD τ).loc main_arg5)) shapeCasts_S128_S1x128 i := ops0_v21 (W0 m ρ c)

/-! ## After region 0 -/

theorem w2_v22 : W2 m ρ c (Proc.devRef .tc main_v22) = K0 m c := by
  refine (W2_arr m ρ c 5).trans ((Region0.final (V1 m ρ) c).trans ?_)
  unfold Region0.layer K0
  have eb : (fun q : Fin 128 => V1 m ρ c main_v21 (ix2 (0 : Fin 1) q)) = fun q => (m ((c.tc : Thread nD τ).loc main_arg5)) (ix1 q) :=
    funext fun q => by rw [v1_v21]; exact shapeCast_a_1a_apply _ _ 0 q
  rw [v1_arg0, v1_v20, v1_arg3, v1_arg4, eb]

theorem at2_main_arg1 : W2 m ρ c (Proc.devRef .tc main_arg1) = (m ((c.tc : Thread nD τ).loc main_arg1)) :=
  (W2_of_ne m ρ c main_arg1 (by decide)).trans (keep0_main_arg1 (W0 m ρ c))
theorem at2_main_arg2 : W2 m ρ c (Proc.devRef .tc main_arg2) = (m ((c.tc : Thread nD τ).loc main_arg2)) :=
  (W2_of_ne m ρ c main_arg2 (by decide)).trans (keep0_main_arg2 (W0 m ρ c))
theorem at2_main_v7 : W2 m ρ c (Proc.devRef .tc main_v7) = dinvK (m ((c.tc : Thread nD τ).loc main_arg2)) :=
  (W2_of_ne m ρ c main_v7 (by decide)).trans (ops0_v7 (W0 m ρ c))
theorem at2_main_arg6 : W2 m ρ c (Proc.devRef .tc main_arg6) = (m ((c.tc : Thread nD τ).loc main_arg6)) :=
  (W2_of_ne m ρ c main_arg6 (by decide)).trans (keep0_main_arg6 (W0 m ρ c))
theorem at2_main_arg7 : W2 m ρ c (Proc.devRef .tc main_arg7) = (m ((c.tc : Thread nD τ).loc main_arg7)) :=
  (W2_of_ne m ρ c main_arg7 (by decide)).trans (keep0_main_arg7 (W0 m ρ c))
theorem at2_main_arg8 : W2 m ρ c (Proc.devRef .tc main_arg8) = (m ((c.tc : Thread nD τ).loc main_arg8)) :=
  (W2_of_ne m ρ c main_arg8 (by decide)).trans (keep0_main_arg8 (W0 m ρ c))
theorem at2_main_arg9 : W2 m ρ c (Proc.devRef .tc main_arg9) = (m ((c.tc : Thread nD τ).loc main_arg9)) :=
  (W2_of_ne m ρ c main_arg9 (by decide)).trans (keep0_main_arg9 (W0 m ρ c))
theorem at2_main_arg10 : W2 m ρ c (Proc.devRef .tc main_arg10) = (m ((c.tc : Thread nD τ).loc main_arg10)) :=
  (W2_of_ne m ρ c main_arg10 (by decide)).trans (keep0_main_arg10 (W0 m ρ c))
theorem at2_main_arg11 : W2 m ρ c (Proc.devRef .tc main_arg11) = (m ((c.tc : Thread nD τ).loc main_arg11)) :=
  (W2_of_ne m ρ c main_arg11 (by decide)).trans (keep0_main_arg11 (W0 m ρ c))

/-! ## After the second stretch (region 1's entry) -/

theorem v3_v22 : V3 m ρ c main_v22 = K0 m c := (keep1_main_v22 (W2 m ρ c)).trans (w2_v22 m ρ c)
theorem v3_arg6 : V3 m ρ c main_arg6 = (m ((c.tc : Thread nD τ).loc main_arg6)) := (keep1_main_arg6 (W2 m ρ c)).trans (at2_main_arg6 m ρ c)
theorem v3_arg7 : V3 m ρ c main_arg7 = (m ((c.tc : Thread nD τ).loc main_arg7)) := (keep1_main_arg7 (W2 m ρ c)).trans (at2_main_arg7 m ρ c)
theorem v3_v35 : V3 m ρ c main_v35
    = meanK (K0 m c) (m ((c.tc : Thread nD τ).loc main_arg1)) (m ((c.tc : Thread nD τ).loc main_arg2)) (dinvK (m ((c.tc : Thread nD τ).loc main_arg2))) := by
  refine (ops1_v35 (W2 m ρ c)).trans ?_
  rw [w2_v22, at2_main_arg1, at2_main_arg2, at2_main_v7]
theorem v3_v36 : V3 m ρ c main_v36 = fun i => shapeCast S1x128 (m ((c.tc : Thread nD τ).loc main_arg8)) shapeCasts_S128_S1x128 i := by
  refine (ops1_v36 (W2 m ρ c)).trans ?_
  rw [at2_main_arg8]

/-! ## After region 1 -/

theorem w4_v37 : W4 m ρ c (Proc.devRef .tc main_v37) = K1 m c := by
  refine (W4_arr m ρ c 5).trans ((Region1.final (V3 m ρ) c).trans ?_)
  unfold Region1.layer K1
  have eb : (fun q : Fin 128 => V3 m ρ c main_v36 (ix2 (0 : Fin 1) q)) = fun q => (m ((c.tc : Thread nD τ).loc main_arg8)) (ix1 q) :=
    funext fun q => by rw [v3_v36]; exact shapeCast_a_1a_apply _ _ 0 q
  rw [v3_v22, v3_v35, v3_arg6, v3_arg7, eb]

theorem at4_main_arg1 : W4 m ρ c (Proc.devRef .tc main_arg1) = (m ((c.tc : Thread nD τ).loc main_arg1)) :=
  (W4_of_ne m ρ c main_arg1 (by decide)).trans ((keep1_main_arg1 (W2 m ρ c)).trans (at2_main_arg1 m ρ c))
theorem at4_main_arg2 : W4 m ρ c (Proc.devRef .tc main_arg2) = (m ((c.tc : Thread nD τ).loc main_arg2)) :=
  (W4_of_ne m ρ c main_arg2 (by decide)).trans ((keep1_main_arg2 (W2 m ρ c)).trans (at2_main_arg2 m ρ c))
theorem at4_main_v7 : W4 m ρ c (Proc.devRef .tc main_v7) = dinvK (m ((c.tc : Thread nD τ).loc main_arg2)) :=
  (W4_of_ne m ρ c main_v7 (by decide)).trans ((keep1_main_v7 (W2 m ρ c)).trans (at2_main_v7 m ρ c))
theorem at4_main_arg9 : W4 m ρ c (Proc.devRef .tc main_arg9) = (m ((c.tc : Thread nD τ).loc main_arg9)) :=
  (W4_of_ne m ρ c main_arg9 (by decide)).trans ((keep1_main_arg9 (W2 m ρ c)).trans (at2_main_arg9 m ρ c))
theorem at4_main_arg10 : W4 m ρ c (Proc.devRef .tc main_arg10) = (m ((c.tc : Thread nD τ).loc main_arg10)) :=
  (W4_of_ne m ρ c main_arg10 (by decide)).trans ((keep1_main_arg10 (W2 m ρ c)).trans (at2_main_arg10 m ρ c))
theorem at4_main_arg11 : W4 m ρ c (Proc.devRef .tc main_arg11) = (m ((c.tc : Thread nD τ).loc main_arg11)) :=
  (W4_of_ne m ρ c main_arg11 (by decide)).trans ((keep1_main_arg11 (W2 m ρ c)).trans (at2_main_arg11 m ρ c))

/-! ## After the third stretch (region 2's entry) -/

theorem v5_v37 : V5 m ρ c main_v37 = K1 m c := (keep2_main_v37 (W4 m ρ c)).trans (w4_v37 m ρ c)
theorem v5_arg9 : V5 m ρ c main_arg9 = (m ((c.tc : Thread nD τ).loc main_arg9)) := (keep2_main_arg9 (W4 m ρ c)).trans (at4_main_arg9 m ρ c)
theorem v5_arg10 : V5 m ρ c main_arg10 = (m ((c.tc : Thread nD τ).loc main_arg10)) := (keep2_main_arg10 (W4 m ρ c)).trans (at4_main_arg10 m ρ c)
theorem v5_v50 : V5 m ρ c main_v50
    = meanK (K1 m c) (m ((c.tc : Thread nD τ).loc main_arg1)) (m ((c.tc : Thread nD τ).loc main_arg2)) (dinvK (m ((c.tc : Thread nD τ).loc main_arg2))) := by
  refine (ops2_v50 (W4 m ρ c)).trans ?_
  rw [w4_v37, at4_main_arg1, at4_main_arg2, at4_main_v7]
theorem v5_v51 : V5 m ρ c main_v51 = fun i => shapeCast S1x47 (m ((c.tc : Thread nD τ).loc main_arg11)) shapeCasts_S47_S1x47 i := by
  refine (ops2_v51 (W4 m ρ c)).trans ?_
  rw [at4_main_arg11]

/-! ## After region 2: the result -/

theorem w6_v52 : W6 m ρ c (Proc.devRef .tc main_v52) = K2 m c := by
  refine (W6_arr m ρ c 5).trans ((Region2.final (V5 m ρ) c).trans ?_)
  unfold Region2.layer K2
  have eb : (fun q : Fin 47 => V5 m ρ c main_v51 (ix2 (0 : Fin 1) q)) = fun q => (m ((c.tc : Thread nD τ).loc main_arg11)) (ix1 q) :=
    funext fun q => by rw [v5_v51]; exact shapeCast_a_1a_apply _ _ 0 q
  rw [v5_v37, v5_v50, v5_arg9, v5_arg10, eb]

/-- The idealized kernel's run: the result array ends at the three layers `K2`, the arguments as launched. -/
theorem run : θ_run defs (onTc (τ := τ) (main (F := Ideal))) ⟨m, fun _ => 0, ρ⟩ (fun r => ∀ c : Dev nD,
      r.2.mem ((c.tc : Thread nD τ).loc main_v52) = K2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (w6_v52 m ρ c), (h c).2⟩) (Cert.KernelIdeal.Named.run_named m ρ)

end Cert.KernelIdeal.KV

end
-- ==== Proof.RefValue.lean ====
/-
  The reference's result, layer by layer. Its run ends with the result buffer at one long composed term of the argument
  arrays; that term is three SAGE layers — each the host's two whole matrix products and the bias, the first two clamped at
  zero — whose neighbour mean is the edge sum (a gather of the source rows scattered onto the destination rows) DIVIDED
  by `max(deg, 1)` broadcast along the features. Each layer is then the index-by-index layer of the specification.
-/
import proofs.«126353_j26560077759041_1_alg».proof.Proof.Gen.ReferenceIdeal.Run
import proofs.«126353_j26560077759041_1_alg».proof.Proof.LibSageLayer

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx

/-- The neighbour mean as the reference computes it: the rows of `h` at the (wrapped) source indices, summed onto their
    destination rows, divided by `max(deg, 1)` — `deg` the number of edges arriving at the row. -/
def meanR (h : FVec Ideal S100000x128 .f32) (src dst : Vec Ideal S1600000 .i32) : FVec Ideal S100000x128 .f32 :=
  Host.divf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))

/-- One hidden layer as the host spells it: two whole products, the bias broadcast along the rows, the clamp. -/
def layerR (h : FVec Ideal S100000x128 .f32) (src dst : Vec Ideal S1600000 .i32) (Ws Wn : FVec Ideal S128x128 .f32)
    (b : FVec Ideal S128 .f32) : FVec Ideal S100000x128 .f32 :=
  maximumf (addf (addf (Host.dotGeneral dot_S100000x128_S128x128_S100000x128_1_0_0_1_n_n none h Ws) (Host.dotGeneral dot_S100000x128_S128x128_S100000x128_1_0_0_1_n_n none (meanR h src dst) Wn)) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

/-- The output layer as the host spells it (no clamp). -/
def lastR (h : FVec Ideal S100000x128 .f32) (src dst : Vec Ideal S1600000 .i32) (Ws Wn : FVec Ideal S128x47 .f32)
    (b : FVec Ideal S47 .f32) : FVec Ideal S100000x47 .f32 :=
  addf (addf (Host.dotGeneral dot_S100000x128_S128x47_S100000x47_1_0_0_1_n_n none h Ws) (Host.dotGeneral dot_S100000x128_S128x47_S100000x47_1_0_0_1_n_n none (meanR h src dst) Wn)) (broadcastInDim S100000x47 ![0, 1] bcast_S1x47_S100000x47_0_1 (broadcastInDim S1x47 ![1] bcast_S47_S1x47_1 b))

/-- The run's composed term IS the three layers. -/
theorem res_eq (m : (ℓ : Loc nD τ sig) → Buf (Elt Ideal) ℓ) (c : Dev nD) :
    res_main_v76 (F := Ideal) m c
      = lastR (layerR (layerR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
            (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)))
          (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) := by
  unfold res_main_v76 lastR layerR meanR
  rfl

/-- A hidden layer is the specification's clamped layer of `h` and its neighbour mean. -/
theorem layerR_eq (h : FVec Ideal S100000x128 .f32) (src dst : Vec Ideal S1600000 .i32) (Ws Wn : FVec Ideal S128x128 .f32)
    (b : FVec Ideal S128 .f32) :
    layerR h src dst Ws Wn b
      = Cert.Sage.linRelu (M := 100000) (K := 128) (N := 128) h (meanR h src dst) Ws Wn (fun q => b (ix1 q)) :=
  Cert.Sage.host_linRelu dot_S100000x128_S128x128_S100000x128_1_0_0_1_n_n rfl rfl rfl rfl rfl rfl
    ![1] bcast_S128_S1x128_1 rfl ![0, 1] bcast_S1x128_S100000x128_0_1 rfl ![] bcast_S_S100000x128 h (meanR h src dst) Ws Wn b

/-- The output layer is the specification's layer of `h` and its neighbour mean. -/
theorem lastR_eq (h : FVec Ideal S100000x128 .f32) (src dst : Vec Ideal S1600000 .i32) (Ws Wn : FVec Ideal S128x47 .f32)
    (b : FVec Ideal S47 .f32) :
    lastR h src dst Ws Wn b
      = Cert.Sage.lin (M := 100000) (K := 128) (N := 47) h (meanR h src dst) Ws Wn (fun q => b (ix1 q)) :=
  Cert.Sage.host_lin dot_S100000x128_S128x47_S100000x47_1_0_0_1_n_n rfl rfl rfl rfl rfl rfl
    ![1] bcast_S47_S1x47_1 rfl ![0, 1] bcast_S1x47_S100000x47_0_1 rfl h (meanR h src dst) Ws Wn b

end Cert.ReferenceIdeal.RefValue

end
-- ==== Proof.Bridge.lean ====
/-
  The two sides meet. The kernel's host side multiplies the edge sums by the reciprocal `1 / max(deg, 1)`; the reference
  divides them by `max(deg, 1)`. The divisor is at least one, so both are the edge sum times the inverse of the divisor,
  on every extended real: the two neighbour means are one function, and with them the three layers.
-/
import proofs.«126353_j26560077759041_1_alg».proof.Proof.KernelValue
import proofs.«126353_j26560077759041_1_alg».proof.Proof.RefValue

set_option maxRecDepth 16384

noncomputable section

namespace Cert.Bridge

open Idealize.ShloMosaic Idealize.ShloMosaic.TcCoe Idealize.SL.Sem Idealize.ShloMosaic.ValueIdx

/-- The kernel's neighbour mean (edge sums times the reciprocal degree) is the reference's (edge sums divided by
    `max(deg, 1)`). -/
theorem mean_bridge (h : FVec Ideal Cert.ReferenceIdeal.S100000x128 .f32) (src dst : Vec Ideal Cert.ReferenceIdeal.S1600000 .i32) :
    Cert.KernelIdeal.Host.meanK h src dst (Cert.KernelIdeal.Host.dinvK dst) = Cert.ReferenceIdeal.RefValue.meanR h src dst := by
  unfold Cert.KernelIdeal.Host.meanK Cert.KernelIdeal.Host.dinvK Cert.ReferenceIdeal.RefValue.meanR
  exact Cert.Sage.mean_eq (M := 100000) (K := 128) ![] _ ![0] _ rfl ![0, 1] _ rfl _ _

/-- Three SAGE layers of the argument arrays: the specification both programs compute. -/
def sage (x : FVec Ideal Cert.ReferenceIdeal.S100000x128 .f32) (src dst : Vec Ideal Cert.ReferenceIdeal.S1600000 .i32)
    (Ws0 Wn0 : FVec Ideal Cert.ReferenceIdeal.S128x128 .f32) (b0 : FVec Ideal Cert.ReferenceIdeal.S128 .f32)
    (Ws1 Wn1 : FVec Ideal Cert.ReferenceIdeal.S128x128 .f32) (b1 : FVec Ideal Cert.ReferenceIdeal.S128 .f32)
    (Ws2 Wn2 : FVec Ideal Cert.ReferenceIdeal.S128x47 .f32) (b2 : FVec Ideal Cert.ReferenceIdeal.S47 .f32) : FVec Ideal Cert.ReferenceIdeal.S100000x47 .f32 :=
  Cert.ReferenceIdeal.RefValue.lastR (Cert.ReferenceIdeal.RefValue.layerR (Cert.ReferenceIdeal.RefValue.layerR x src dst Ws0 Wn0 b0) src dst Ws1 Wn1 b1) src dst Ws2 Wn2 b2

/-- The idealized kernel's result is the three layers of its argument arrays. -/
theorem kernel_eq (m : (ℓ : Loc Cert.KernelIdeal.nD Cert.KernelIdeal.τ Cert.KernelIdeal.sig) → Buf (Elt Ideal) ℓ) (c : Dev Cert.KernelIdeal.nD) :
    Cert.KernelIdeal.KV.K2 m c = sage (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  unfold sage Cert.KernelIdeal.KV.K2 Cert.KernelIdeal.KV.K1 Cert.KernelIdeal.KV.K0
  rw [Cert.ReferenceIdeal.RefValue.lastR_eq, Cert.ReferenceIdeal.RefValue.layerR_eq, Cert.ReferenceIdeal.RefValue.layerR_eq, mean_bridge, mean_bridge, mean_bridge]

/-- The reference run's composed term is the three layers of its argument arrays. -/
theorem ref_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v76 (F := Ideal) m' c = sage (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) :=
  Cert.ReferenceIdeal.RefValue.res_eq m' c

end Cert.Bridge

end
-- ==== Proof.lean ====
/-
  Three stacked SAGE layers (mean aggregation, two linear maps, a bias; the first two clamped at zero) on a graph of
  100000 nodes and 1600000 edges: a kernel that runs each layer's dense part as a pipelined region over 50 blocks of 2000
  rows, the gather / scatter-add of the neighbour features on the host between the regions, against a plain reference.

  On the extended reals the two programs compute one function of the argument arrays. Per layer both gather the source
  rows (negative indices wrapped) and scatter-add them onto the destination rows with the SAME host operations; the kernel
  then multiplies by `1 / max(deg, 1)`, computed once, where the reference divides by `max(deg, 1)` — equal because the
  divisor is at least one, hence never zero, whatever the edge sums are (no finiteness of the inputs is used). The dense
  part `h · W_self + hn · W_neigh + b` is, entry by entry, the same two sums over the 128 features and the same bias entry
  whether the rows are taken 2000 at a time (the matrix unit from a zero accumulator, a change of float format the
  identity) or all at once (the host's matrix product); the blocks tile the rows, so each region's output is the layer of
  the arrays it finds. `preserves` has no entry: the idealization rewrote nothing.
-/
import proofs.«126353_j26560077759041_1_alg».proof.Defs
import proofs.«126353_j26560077759041_1_alg».proof.Proof.Gen.Kernel
import proofs.«126353_j26560077759041_1_alg».proof.Proof.Gen.KernelIdeal
import proofs.«126353_j26560077759041_1_alg».proof.Proof.Gen.ReferenceIdeal
import proofs.«126353_j26560077759041_1_alg».proof.Proof.Gen.Pre_finite_inputs
import proofs.«126353_j26560077759041_1_alg».proof.Proof.Gen.ReferenceIdeal.Run
import proofs.«126353_j26560077759041_1_alg».proof.Proof.PatchedKernelFrame
import proofs.«126353_j26560077759041_1_alg».proof.Proof.PatchedKernelIdealFrame
import proofs.«126353_j26560077759041_1_alg».proof.Proof.KernelValue
import proofs.«126353_j26560077759041_1_alg».proof.Proof.RefValue
import proofs.«126353_j26560077759041_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the three layers of the (agreeing) argument arrays. -/
theorem algebraic : Cert.algebraic_KernelIdeal_ReferenceIdeal := by
  intro m ρ m' ρ' _ hagree
  refine ⟨fun c => Cert.KernelIdeal.KV.K2 m c, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.Bridge.ref_eq, a0, a1, a2, a3, a4, a5, a6, a7, a8, a9, a10, a11]
  exact (Cert.Bridge.kernel_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
